-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64 : Shape := ⟨3, ![16, 64, 64]⟩
abbrev S1024x32768 : Shape := ⟨2, ![1024, 32768]⟩
abbrev S_ : Shape := ⟨0, ![]⟩

class Facts : Prop where
  bcast_S_S16x64x64 : S_.BroadcastsInDim S16x64x64 (![] : Fin 0 → Fin S16x64x64.rank)
  reducesTo_S16x64x64_S_d0_1_2 : S16x64x64.ReducesTo [0, 1, 2] S_
  h_S_ : 0 < S_.numel
  bcast_S_S1024x32768 : S_.BroadcastsInDim S1024x32768 (![] : Fin 0 → Fin S1024x32768.rank)
  reducesTo_S1024x32768_S_d0_1 : S1024x32768.ReducesTo [0, 1] S_

variable [Facts]

def fn {F : FTy → Type} [FloatOps F] (main_arg0 : FVec F S16x64x64 .f32) (main_arg1 : FVec F S1024x32768 .f32) : IVec S_ 1 :=
  let main_v0 : FVec F S16x64x64 .f32 := Host.absf main_arg0
  let main_cst : FVec F S_ .f32 := constant S_ .f32 0x7F800000#32
  let main_v1 : FVec F S16x64x64 .f32 := broadcastInDim S16x64x64 ![] bcast_S_S16x64x64 main_cst
  let main_v2 : IVec S16x64x64 1 := cmpf .olt main_v0 main_v1
  let main_c : IVec S_ 1 := constantI S_ 1 1#1
  let main_v3 : IVec S_ 1 := (fun x v => Host.reduce IntOp.andi x v reducesTo_S16x64x64_S_d0_1_2 h_S_) main_v2 main_c
  let main_v4 : FVec F S1024x32768 .f32 := Host.absf main_arg1
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_c_1 : IVec S_ 1 := constantI S_ 1 1#1
  let main_v7 : IVec S_ 1 := (fun x v => Host.reduce IntOp.andi x v reducesTo_S1024x32768_S_d0_1 h_S_) main_v6 main_c_1
  let main_v8 : IVec S_ 1 := andi main_v3 main_v7
  main_v8
-- ==== Kernel.lean ====
abbrev S16x64x64 : Shape := ⟨3, ![16, 64, 64]⟩
abbrev S1024x32768 : Shape := ⟨2, ![1024, 32768]⟩
abbrev S2x64x64 : Shape := ⟨3, ![2, 64, 64]⟩
abbrev S128x16384 : Shape := ⟨2, ![128, 16384]⟩
abbrev S1x64x64 : Shape := ⟨3, ![1, 64, 64]⟩
abbrev S64x64 : Shape := ⟨2, ![64, 64]⟩
abbrev S64x16384 : Shape := ⟨2, ![64, 16384]⟩

abbrev nBuf : Space → Nat
  | .hbm => 3
  | .vmem => 6
  | .smem => 0
  | _ => 0

abbrev bufTy : (tb : Table) → Fin (tcTables nBuf tb) → BufTy
  | .hbm, ⟨0, _⟩ => ⟨S16x64x64, .f32⟩
  | .hbm, ⟨1, _⟩ => ⟨S1024x32768, .f32⟩
  | .hbm, ⟨2, _⟩ => ⟨S1024x32768, .f32⟩
  | .local _ .vmem, ⟨0, _⟩ => ⟨S2x64x64, .f32⟩
  | .local _ .vmem, ⟨1, _⟩ => ⟨S2x64x64, .f32⟩
  | .local _ .vmem, ⟨2, _⟩ => ⟨S128x16384, .f32⟩
  | .local _ .vmem, ⟨3, _⟩ => ⟨S128x16384, .f32⟩
  | .local _ .vmem, ⟨4, _⟩ => ⟨S128x16384, .f32⟩
  | .local _ .vmem, ⟨5, _⟩ => ⟨S128x16384, .f32⟩
  | _, _ => ⟨S16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  bitsLt_bf16_f32 : FTy.bits .bf16 < FTy.bits .f32
  inb_S128x16384_S64x16384_0_0 : ∀ a, (![0, 0] : Fin 2 → Nat) a + S64x16384.size a ≤ S128x16384.size a
  h_S64x16384 : 0 < S64x16384.numel
  inb_S2x64x64_S1x64x64_1_0_0 : ∀ a, (![1, 0, 0] : Fin 3 → Nat) a + S1x64x64.size a ≤ S2x64x64.size a
  inb_S128x16384_S64x16384_64_0 : ∀ a, (![64, 0] : Fin 2 → Nat) a + S64x16384.size a ≤ S128x16384.size a
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64.size a ≤ S16x64x64.size a
  hwx0_0 : ∀ i : grid0.Coords, EltTy.bits .f32 = 32 ∨ (Rect.block (s := S16x64x64) S2x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S1024x32768.size a
  hwx0_1 : ∀ i : grid0.Coords, EltTy.bits .f32 = 32 ∨ (Rect.block (s := S1024x32768) S128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16384.size a ≤ S1024x32768.size a
  hwx0_2 : ∀ i : grid0.Coords, EltTy.bits .f32 = 32 ∨ (Rect.block (s := S1024x32768) S128x16384.size (cc0_transform_2 i) (hinb0_2 i)).WholeWords (EltTy.packing .f32)

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_arg0) S2x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64 : Shape := ⟨3, ![16, 64, 64]⟩
abbrev S1024x32768 : Shape := ⟨2, ![1024, 32768]⟩
abbrev S16x64x32768 : Shape := ⟨3, ![16, 64, 32768]⟩

abbrev nBuf : Space → Nat
  | .hbm => 5
  | .vmem => 0
  | .smem => 0
  | _ => 0

abbrev bufTy : (tb : Table) → Fin (tcTables nBuf tb) → BufTy
  | .hbm, ⟨0, _⟩ => ⟨S16x64x64, .f32⟩
  | .hbm, ⟨1, _⟩ => ⟨S1024x32768, .f32⟩
  | .hbm, ⟨2, _⟩ => ⟨S16x64x32768, .f32⟩
  | .hbm, ⟨3, _⟩ => ⟨S16x64x32768, .f32⟩
  | .hbm, ⟨4, _⟩ => ⟨S1024x32768, .f32⟩
  | _, _ => ⟨S16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S1024x32768_S16x64x32768 : S1024x32768.ShapeCasts S16x64x32768
  shapeCasts_S16x64x32768_S1024x32768 : S16x64x32768.ShapeCasts S1024x32768
  dot_S16x64x64_S16x64x32768_S16x64x32768_2_1_1_2_0_0_wf : DotDims.WF S16x64x64 S16x64x32768 S16x64x32768 [2] [1] [1] [2] [0] [0]

variable [Facts₀]

def dot_S16x64x64_S16x64x32768_S16x64x32768_2_1_1_2_0_0 : DotDims S16x64x64 S16x64x32768 S16x64x32768 where
  lhsContracting := [2]
  rhsContracting := [1]
  lhsNonContracting := [1]
  rhsNonContracting := [2]
  lhsBatch := [0]
  rhsBatch := [0]
  wf := dot_S16x64x64_S16x64x32768_S16x64x32768_2_1_1_2_0_0_wf

class Facts : Prop extends Facts₀ where

variable [Facts]
-- ==== Proof.Payload.lean ====
/-
  One square block times its 64 rows of the tile: the arithmetic of each of the body's two stores.

  The body loads one `[1, 64, 64]` block of the pair and 64 rows of the tile, drops the block's leading unit axis,
  and multiplies: `(A · B)[p, q] = Σ_{k < 64} A[p, k] · B[k, q]`, accumulated from zero. The two narrowings to a
  shorter float format before the product change nothing on the extended reals.
-/
import proofs.«146479_j63496796504583_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The product's dimension record: contract the left factor's columns with the right factor's rows. -/
abbrev D := dot_S64x64_S64x16384_S64x16384_1_0_0_1_n_n

/-! ## Where the product reads its factors, coordinate by coordinate -/

/-- The left factor's row is the result's row. -/
theorem lhs_row (i : S64x16384.Idx) (s : D.contr.Idx) : (D.lhsIdx i s 0).val = (i 0).val := by
  unfold DotDims.lhsIdx
  rw [dif_neg (show ¬(0 : Fin S64x64.rank) ∈ D.lhsBatch by decide),
    dif_pos (show (0 : Fin S64x64.rank) ∈ D.lhsNonContracting by decide)]
  rfl

/-- The left factor's column is the contraction step. -/
theorem lhs_col (i : S64x16384.Idx) (s : D.contr.Idx) : (D.lhsIdx i s 1).val = (s ⟨0, by decide⟩).val :=
  D.lhsIdx_val_of_single rfl i s

/-- The right factor's row is the contraction step. -/
theorem rhs_row (i : S64x16384.Idx) (s : D.contr.Idx) : (D.rhsIdx i s 0).val = (s ⟨0, by decide⟩).val :=
  D.rhsIdx_val_of_single rfl i s

/-- The right factor's column is the result's column. -/
theorem rhs_col (i : S64x16384.Idx) (s : D.contr.Idx) : (D.rhsIdx i s 1).val = (i 1).val := by
  unfold DotDims.rhsIdx
  rw [dif_neg (show ¬(1 : Fin S64x16384.rank) ∈ D.rhsBatch by decide),
    dif_pos (show (1 : Fin S64x16384.rank) ∈ D.rhsNonContracting by decide)]
  rfl

/-- The left factor's index for result entry `(p, q)` at step `k`: `(p, k)`. -/
theorem left_index (p : Fin 64) (q : Fin 16384) (k : Fin 64) :
    D.lhsIdx (ix2 p q) ((contrEquiv1 D 64 rfl rfl).symm k) = ix2 p k :=
  funext fun a => Fin.ext (by
    match a with
    | ⟨0, _⟩ => exact lhs_row _ _
    | ⟨1, _⟩ => exact (lhs_col _ _).trans (contrEquiv1_symm_val D 64 rfl rfl k))

/-- The right factor's: `(k, q)`. -/
theorem right_index (p : Fin 64) (q : Fin 16384) (k : Fin 64) :
    D.rhsIdx (ix2 p q) ((contrEquiv1 D 64 rfl rfl).symm k) = ix2 k q :=
  funext fun a => Fin.ext (by
    match a with
    | ⟨0, _⟩ => exact (rhs_row _ _).trans (contrEquiv1_symm_val D 64 rfl rfl k)
    | ⟨1, _⟩ => exact rhs_col _ _)

/-! ## The store's value at an entry -/

/-- Dropping the leading unit axis of a `[1, 64, 64]` block: entry `(p, k)` is the block's `(0, p, k)`. -/
theorem drop_unit (v : Vec Ideal S1x64x64 .f32) (p k : Fin 64) :
    shapeCast S64x64 v shapeCasts_S1x64x64_S64x64 (ix2 p k) = v (ix3 (0 : Fin 1) p k) := by
  refine shapeCast_apply v shapeCasts_S1x64x64_S64x64 (ix2 p k) (ix3 (0 : Fin 1) p k) ?_
  rw [Shape.rowMajor_val_three, Shape.rowMajor_val_two]
  show ((0 : Fin 1).val * 64 + p.val) * 64 + k.val = p.val * 64 + k.val
  simp

/-- The first store's value at `(p, q)`: the loaded block's row `p` against the loaded rows' column `q`. -/
theorem pay1_apply (v0 : Vec Ideal S1x64x64 .f32) (v3 : Vec Ideal S64x16384 .f32) (p : Fin 64) (q : Fin 16384) :
    k0_pay1 (F := Ideal) v0 v3 (ix2 p q) = ∑ k : Fin 64, v0 (ix3 (0 : Fin 1) p k) * v3 (ix2 k q) := by
  unfold k0_pay1
  refine (Ideal.matmul_constant_zero_apply D none _ _ (ix2 p q)).trans ?_
  rw [← Equiv.sum_comp (contrEquiv1 D 64 rfl rfl).symm]
  refine Finset.sum_congr rfl fun k _ => ?_
  rw [left_index, right_index]
  exact congrArg (· * v3 (ix2 k q)) (drop_unit v0 p k)

/-- The second store's value is the same function of its own loads. -/
theorem pay2_apply (v7 : Vec Ideal S1x64x64 .f32) (v10 : Vec Ideal S64x16384 .f32) (p : Fin 64) (q : Fin 16384) :
    k0_pay2 (F := Ideal) v7 v10 (ix2 p q) = ∑ k : Fin 64, v7 (ix3 (0 : Fin 1) p k) * v10 (ix2 k q) :=
  pay1_apply v7 v10 p q

end Cert.KernelIdeal.Payload

end
-- ==== Proof.BlockDiag.lean ====
/-
  The mathematics of the claim: a block-diagonal matrix times a matrix.

  `W` stacks 16 square blocks of size 64 and `X` has 1024 = 16 · 64 rows. Row `r` of `blockdiag(W) · X` lies in
  diagonal block `r / 64`, at row `r % 64` of that block, and the block's nonzero columns meet exactly the 64 rows
  `(r / 64) · 64 + k` of `X`:

      out[r, b] = Σ_{k < 64} W[r / 64, r % 64, k] · X[(r / 64) · 64 + k, b].

  `prod` is this function of the two whole arrays. `blk` is the same formula one level down, for a pair of stacked
  blocks (two diagonal blocks, 128 rows) and a 128-row, 16384-column tile of `X`: what one grid point computes.
  Both are finite sums of products on the extended reals; nothing here needs the entries to be finite.
-/
import Idealize.ShloMosaic.PureOps.Ideal
import Idealize.ShloMosaic.Lib.ValueIdx

noncomputable section

namespace Cert.BlockDiag

open Idealize.ShloMosaic Idealize.ShloMosaic.ValueIdx

/-! ## The whole arrays -/

/-- The stacked square blocks `W : [16, 64, 64]`. -/
abbrev SW : Shape := ⟨3, ![16, 64, 64]⟩
/-- The matrix `X : [1024, 32768]`; the product has the same shape. -/
abbrev SX : Shape := ⟨2, ![1024, 32768]⟩

/-- The entry of the stacked blocks that row `r` uses at contraction step `k`: block `r / 64`, row `r % 64`,
    column `k`. -/
abbrev wAt (r : Fin 1024) (k : Fin 64) : SW.Idx :=
  ix3 (⟨r.val / 64, by have := r.isLt; omega⟩ : Fin 16) (⟨r.val % 64, by omega⟩ : Fin 64) k

/-- The entry of `X` it multiplies: row `(r / 64) · 64 + k`, column `b`. -/
abbrev xAt (r : Fin 1024) (b : Fin 32768) (k : Fin 64) : SX.Idx :=
  ix2 (⟨r.val / 64 * 64 + k.val, by have := r.isLt; have := k.isLt; omega⟩ : Fin 1024) b

/-- `blockdiag(W) · X`, entry by entry. -/
def prod (W : SW.Idx → EReal) (X : SX.Idx → EReal) : SX.Idx → EReal :=
  fun i => ∑ k : Fin 64, W (wAt (i 0) k) * X (xAt (i 0) (i 1) k)

/-! ## One grid point's share: two stacked blocks against a 128-row tile -/

/-- Two consecutive diagonal blocks, `[2, 64, 64]`. -/
abbrev SWb : Shape := ⟨3, ![2, 64, 64]⟩
/-- A tile of `X` (and of the product): 128 rows, 16384 columns. -/
abbrev SXb : Shape := ⟨2, ![128, 16384]⟩

/-- Inside the pair: block `r / 64` (0 or 1), row `r % 64`, column `k`. -/
abbrev wbAt (r : Fin 128) (k : Fin 64) : SWb.Idx :=
  ix3 (⟨r.val / 64, by have := r.isLt; omega⟩ : Fin 2) (⟨r.val % 64, by omega⟩ : Fin 64) k

/-- Inside the tile: row `(r / 64) · 64 + k`, column `b`. -/
abbrev xbAt (r : Fin 128) (b : Fin 16384) (k : Fin 64) : SXb.Idx :=
  ix2 (⟨r.val / 64 * 64 + k.val, by have := r.isLt; have := k.isLt; omega⟩ : Fin 128) b

/-- The pair of blocks times the tile, entry by entry: rows 0–63 use the first block and the tile's rows 0–63,
    rows 64–127 the second block and the tile's rows 64–127. -/
def blk (w : SWb.Idx → EReal) (x : SXb.Idx → EReal) : SXb.Idx → EReal :=
  fun y => ∑ k : Fin 64, w (wbAt (y 0) k) * x (xbAt (y 0) (y 1) k)

end Cert.BlockDiag

end
-- ==== Proof.Block.lean ====
/-
  What one grid point leaves in its output tile, as ONE function of the pair of blocks and the tile of `X` it was given.

  The body fills the 128-row tile by two stores: rows 0–63 with block 0 of the pair times the tile's rows 0–63, rows
  64–127 with block 1 times rows 64–127. So entry `(y₀, y₁)` uses block `y₀ / 64`, that block's row `y₀ % 64`, and
  the tile's rows `(y₀ / 64) · 64 + k`: `BlockDiag.blk`. Each store's rectangle is one half of the tile, each
  store's value agrees with `blk` on its half, and the two halves cover the tile.
-/
import proofs.«146479_j63496796504583_2_alg».proof.Proof.Gen.KernelIdeal.Frame
import proofs.«146479_j63496796504583_2_alg».proof.Proof.Payload
import proofs.«146479_j63496796504583_2_alg».proof.Proof.BlockDiag

noncomputable section

namespace Cert.KernelIdeal.Block

open Cert.KernelIdeal Cert.KernelIdeal.Gen Idealize.ShloMosaic Idealize.ShloMosaic.ValueIdx Cert.BlockDiag

/-- Rows 0–63: the first store's value is `blk` there (block 0, the tile's rows `k`). -/
theorem lower_half (x0 : Vec Ideal S2x64x64 .f32) (x1 : Vec Ideal S128x16384 .f32) (x : r0_1.shape.Idx) :
    k0_pay1 (F := Ideal) (View.ld x0 r0_0) (View.ld x1 r0_1) x = blk x0 x1 (r0_1.emb x) := by
  obtain ⟨p, q, rfl⟩ : ∃ (p : Fin 64) (q : Fin 16384), x = ix2 p q := ⟨x 0, x 1, eq_ix2 x⟩
  refine (Payload.pay1_apply _ _ p q).trans ?_
  have hp : p.val < 64 := p.isLt
  show ∑ k : Fin 64, x0 (r0_0.idx (ix3 (0 : Fin 1) p k)) * x1 (r0_1.idx (ix2 k q))
    = ∑ k : Fin 64, x0 (wbAt (r0_1.emb (ix2 p q) 0) k) * x1 (xbAt (r0_1.emb (ix2 p q) 0) (r0_1.emb (ix2 p q) 1) k)
  refine Finset.sum_congr rfl fun k _ => ?_
  have hk : k.val < 64 := k.isLt
  refine congrArg₂ (· * ·) (congrArg x0 ?_) (congrArg x1 ?_)
  · funext a; apply Fin.ext
    match a with
    | ⟨0, _⟩ => show 0 + 1 * 0 = (0 + 1 * p.val) / 64; omega
    | ⟨1, _⟩ => show 0 + 1 * p.val = (0 + 1 * p.val) % 64; omega
    | ⟨2, _⟩ => show 0 + 1 * k.val = k.val; omega
  · funext a; apply Fin.ext
    match a with
    | ⟨0, _⟩ => show 0 + 1 * k.val = (0 + 1 * p.val) / 64 * 64 + k.val; omega
    | ⟨1, _⟩ => rfl

/-- Rows 64–127: the second store's value is `blk` there (block 1, the tile's rows `64 + k`). -/
theorem upper_half (x0 : Vec Ideal S2x64x64 .f32) (x1 : Vec Ideal S128x16384 .f32) (x : r0_3.shape.Idx) :
    k0_pay2 (F := Ideal) (View.ld x0 r0_2) (View.ld x1 r0_3) x = blk x0 x1 (r0_3.emb x) := by
  obtain ⟨p, q, rfl⟩ : ∃ (p : Fin 64) (q : Fin 16384), x = ix2 p q := ⟨x 0, x 1, eq_ix2 x⟩
  refine (Payload.pay2_apply _ _ p q).trans ?_
  have hp : p.val < 64 := p.isLt
  show ∑ k : Fin 64, x0 (r0_2.idx (ix3 (0 : Fin 1) p k)) * x1 (r0_3.idx (ix2 k q))
    = ∑ k : Fin 64, x0 (wbAt (r0_3.emb (ix2 p q) 0) k) * x1 (xbAt (r0_3.emb (ix2 p q) 0) (r0_3.emb (ix2 p q) 1) k)
  refine Finset.sum_congr rfl fun k _ => ?_
  have hk : k.val < 64 := k.isLt
  refine congrArg₂ (· * ·) (congrArg x0 ?_) (congrArg x1 ?_)
  · funext a; apply Fin.ext
    match a with
    | ⟨0, _⟩ => show 1 + 1 * 0 = (64 + 1 * p.val) / 64; omega
    | ⟨1, _⟩ => show 0 + 1 * p.val = (64 + 1 * p.val) % 64; omega
    | ⟨2, _⟩ => show 0 + 1 * k.val = k.val; omega
  · funext a; apply Fin.ext
    match a with
    | ⟨0, _⟩ => show 64 + 1 * k.val = (64 + 1 * p.val) / 64 * 64 + k.val; omega
    | ⟨1, _⟩ => rfl

/-- The tile after the body: both stores are pieces of `blk`, and together they cover the tile. -/
theorem out_eq (x0 : Vec Ideal S2x64x64 .f32) (x1 : Vec Ideal S128x16384 .f32) :
    out0_2 (F := Ideal) x0 x1 = blk x0 x1 := by
  funext y
  unfold out0_2
  refine View.canon_apply_of_pieces (Val := Elt Ideal) (blk x0 x1) _ ?_ y (cover0_2 _ _ y)
  intro pc hpc
  rcases List.mem_cons.mp hpc with rfl | hpc
  · exact fun x => upper_half x0 x1 x
  · rcases List.mem_cons.mp hpc with rfl | hpc
    · exact fun x => lower_half x0 x1 x
    · exact absurd hpc List.not_mem_nil

end Cert.KernelIdeal.Block

end
-- ==== Proof.Tile.lean ====
/-
  A tile of the product is the tile-level product of the matching blocks.

  Fix a pair of diagonal blocks `h` (of 8) and a column tile `c` (of 2). If `w` is blocks `2h, 2h + 1` of `W` and `x`
  is rows `128h … 128h + 127`, columns `16384c … 16384c + 16383` of `X`, then `blk w x` at `(r, q)` is `prod W X` at
  `(128h + r, 16384c + q)`: that row's diagonal block is `(128h + r) / 64 = 2h + r / 64`, its row inside the block
  `(128h + r) % 64 = r % 64`, and the rows of `X` it meets are `((128h + r) / 64) · 64 + k = 128h + (r / 64) · 64 + k`.
  The two sums then agree term by term.
-/
import proofs.«146479_j63496796504583_2_alg».proof.Proof.BlockDiag

noncomputable section

namespace Cert.BlockDiag

open Idealize.ShloMosaic Idealize.ShloMosaic.ValueIdx

theorem blk_eq_prod (W : SW.Idx → EReal) (X : SX.Idx → EReal) (w : SWb.Idx → EReal) (x : SXb.Idx → EReal)
    (h c : ℕ) (hh : h < 8) (hc : c < 2)
    (hw : ∀ (g : Fin 2) (r k : Fin 64),
      w (ix3 g r k) = W (ix3 (⟨h * 2 + g.val, by have := g.isLt; omega⟩ : Fin 16) r k))
    (hx : ∀ (r : Fin 128) (q : Fin 16384),
      x (ix2 r q) = X (ix2 (⟨h * 128 + r.val, by have := r.isLt; omega⟩ : Fin 1024)
        (⟨c * 16384 + q.val, by have := q.isLt; omega⟩ : Fin 32768)))
    (y : SXb.Idx) (i : SX.Idx) (hi0 : (i 0).val = h * 128 + (y 0).val) (hi1 : (i 1).val = c * 16384 + (y 1).val) :
    blk w x y = prod W X i := by
  obtain ⟨r, q, rfl⟩ : ∃ (r : Fin 128) (q : Fin 16384), y = ix2 r q := ⟨y 0, y 1, eq_ix2 y⟩
  obtain ⟨r', q', rfl⟩ : ∃ (r' : Fin 1024) (q' : Fin 32768), i = ix2 r' q' := ⟨i 0, i 1, eq_ix2 i⟩
  have hr : r.val < 128 := r.isLt
  have e0 : r'.val = h * 128 + r.val := hi0
  have e1 : q'.val = c * 16384 + q.val := hi1
  show ∑ k : Fin 64, w (wbAt r k) * x (xbAt r q k) = ∑ k : Fin 64, W (wAt r' k) * X (xAt r' q' k)
  refine Finset.sum_congr rfl fun k _ => ?_
  have hk : k.val < 64 := k.isLt
  rw [hw, hx]
  refine congrArg₂ (· * ·) (congrArg W ?_) (congrArg X ?_)
  · funext a; apply Fin.ext
    match a with
    | ⟨0, _⟩ => show h * 2 + r.val / 64 = r'.val / 64; omega
    | ⟨1, _⟩ => show r.val % 64 = r'.val % 64; omega
    | ⟨2, _⟩ => rfl
  · funext a; apply Fin.ext
    match a with
    | ⟨0, _⟩ => show h * 128 + (r.val / 64 * 64 + k.val) = r'.val / 64 * 64 + k.val; omega
    | ⟨1, _⟩ => show c * 16384 + q.val = q'.val; omega

end Cert.BlockDiag

end
-- ==== Proof.KernelValue.lean ====
/-
  From tiles to the whole array: after the run the output array is `blockdiag(W) · X`.

  The grid has 8 × 2 points. At point `(h, c)` the kernel is given blocks `2h, 2h + 1` of `W` (the pair does not move
  with `c`) and the tile of `X` at block-row `h`, block-column `c`, and it writes back the output's tile at the same
  `(h, c)`. What it writes is `BlockDiag.blk` of those two blocks (Block.lean), which is that tile of `BlockDiag.prod`
  of the whole arrays (Tile.lean). Every entry `(r, b)` of the output lies in the tile `(r / 128, b / 16384)`, which
  some point writes, so the whole array ends at `prod`.
-/
import proofs.«146479_j63496796504583_2_alg».proof.Proof.Gen.KernelIdeal.Value
import proofs.«146479_j63496796504583_2_alg».proof.Proof.Block
import proofs.«146479_j63496796504583_2_alg».proof.Proof.Tile

noncomputable section

namespace Cert.KernelIdeal.KernelValue

open Cert.KernelIdeal Cert.KernelIdeal.Gen Idealize.ShloMosaic Idealize.ShloMosaic.TcCoe Idealize.SL.Sem
open Idealize.ShloMosaic.ValueIdx Cert.BlockDiag
open Idealize.ShloMosaic.Pipeline (Dat)

variable (m : (ℓ : Loc nD τ sig) → Buf (Elt Ideal) ℓ) (ρ : Dev nD → PrngReg)

/-- How the three windows move over the grid, decided over its 16 points: the pair of blocks follows the output's
    block-row and sits at the origin of its other two axes; the tile of `X` follows the output's tile on both axes;
    the output's block-row is below 8 and its block-column below 2. -/
theorem idx_facts : ∀ t : Fin cfg0.N,
    win0_0.index t (0 : Fin 3) = win0_2.index t (0 : Fin 2)
    ∧ win0_0.index t (1 : Fin 3) = 0
    ∧ win0_0.index t (2 : Fin 3) = 0
    ∧ win0_1.index t (0 : Fin 2) = win0_2.index t (0 : Fin 2)
    ∧ win0_1.index t (1 : Fin 2) = win0_2.index t (1 : Fin 2)
    ∧ win0_2.index t (0 : Fin 2) < 8
    ∧ win0_2.index t (1 : Fin 2) < 2 :=
  (by decide +kernel : ∀ t : Fin grid0.N, _)

/-- Every tile of the output is some point's. -/
theorem idx_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- What point `t` writes back is tile `t` of the block-diagonal product of the whole arrays. -/
theorem flushed_eq (c : Dev nD) (t : Fin cfg0.N) :
    (dats m 0 c).flushed 2 t
      = ((cfg0.win 2).blk t).view.read (Elt Ideal) (prod (V m c main_arg0) (V m c main_arg1)) := by
  rw [Value.flushed2 m c t, Block.out_eq (iblk m c 0 t) (iblk m c 1 t)]
  obtain ⟨e0, e1, e2, e3, e4, e5, e6⟩ := idx_facts t
  funext j
  show blk (iblk m c 0 t) (iblk m c 1 t) j
    = prod (V m c main_arg0) (V m c main_arg1) (((cfg0.win 2).blk t).view.emb j)
  refine blk_eq_prod (V m c main_arg0) (V m c main_arg1) (iblk m c 0 t) (iblk m c 1 t)
    (win0_2.index t (0 : Fin 2)) (win0_2.index t (1 : Fin 2)) e5 e6 ?_ ?_ j (((cfg0.win 2).blk t).view.emb j) ?_ ?_
  · intro g r k
    show V m c main_arg0 (((cfg0.win 0).blk t).view.emb (ix3 g r k)) = V m c main_arg0 _
    refine congrArg (V m c main_arg0) ?_
    funext a; apply Fin.ext
    match a with
    | ⟨0, _⟩ => show win0_0.index t (0 : Fin 3) * 2 + 1 * g.val = win0_2.index t (0 : Fin 2) * 2 + g.val; omega
    | ⟨1, _⟩ => show win0_0.index t (1 : Fin 3) * 64 + 1 * r.val = r.val; omega
    | ⟨2, _⟩ => show win0_0.index t (2 : Fin 3) * 64 + 1 * k.val = k.val; omega
  · intro r q
    show V m c main_arg1 (((cfg0.win 1).blk t).view.emb (ix2 r q)) = V m c main_arg1 _
    refine congrArg (V m c main_arg1) ?_
    funext a; apply Fin.ext
    match a with
    | ⟨0, _⟩ =>
      show win0_1.index t (0 : Fin 2) * 128 + 1 * r.val = win0_2.index t (0 : Fin 2) * 128 + r.val; omega
    | ⟨1, _⟩ =>
      show win0_1.index t (1 : Fin 2) * 16384 + 1 * q.val = win0_2.index t (1 : Fin 2) * 16384 + q.val; omega
  · show win0_2.index t (0 : Fin 2) * 128 + 1 * (j 0).val = win0_2.index t (0 : Fin 2) * 128 + (j 0).val; omega
  · show win0_2.index t (1 : Fin 2) * 16384 + 1 * (j 1).val = win0_2.index t (1 : Fin 2) * 16384 + (j 1).val; omega

/-- An entry of the output is in point `t`'s tile iff each coordinate is in the tile's range on its axis. -/
theorem mem_blk (t : Fin cfg0.N) (i : S1024x32768.Idx) :
    i ∈ ((cfg0.win 2).blk t).view.set ↔ ∀ a : Fin 2, win0_2.index t a * S128x16384.size a ≤ (i a).val
      ∧ (i a).val < win0_2.index t a * S128x16384.size a + S128x16384.size a := by
  show i ∈ ((View.whole main_v0).slice (win0_2.rect t)).set ↔ _
  rw [View.set_slice_whole, Rect.mem_set_unit]
  exact Iff.rfl

/-- Every entry `(r, b)` of the output is written: by the point whose tile is `(r / 128, b / 16384)`. -/
theorem cover (i : S1024x32768.Idx) :
    ∃ t : Fin cfg0.N, (cfg0.win 2).flush t = true ∧ i ∈ ((cfg0.win 2).blk t).view.set := by
  have hi0 : (i 0).val < 1024 := (i 0).isLt
  have hi1 : (i 1).val < 32768 := (i 1).isLt
  obtain ⟨t, ht⟩ := idx_onto ⟨(i 0).val / 128, by omega⟩ ⟨(i 1).val / 16384, by omega⟩
  have q0 : win0_2.index t (0 : Fin 2) = (i 0).val / 128 := congrFun ht 0
  have q1 : win0_2.index t (1 : Fin 2) = (i 1).val / 16384 := congrFun ht 1
  refine ⟨t, flush0_2 t, ?_⟩
  rw [mem_blk]
  intro a
  match a with
  | ⟨0, _⟩ =>
    show win0_2.index t (0 : Fin 2) * 128 ≤ (i 0).val ∧ (i 0).val < win0_2.index t (0 : Fin 2) * 128 + 128; omega
  | ⟨1, _⟩ =>
    show win0_2.index t (1 : Fin 2) * 16384 ≤ (i 1).val ∧ (i 1).val < win0_2.index t (1 : Fin 2) * 16384 + 16384
    omega

/-- The output array after the run is `blockdiag(W) · X` of the two argument arrays. -/
theorem final (c : Dev nD) :
    (dats m 0 c).arrAt 2 cfg0.N
      = prod (m ((c : Thread nD τ).loc main_arg0)) (m ((c : Thread nD τ).loc main_arg1)) :=
  (dats m 0 c).arrAt_eq_of_cover 2 (prod (V m c main_arg0) (V m c main_arg1)) (fun t _ => flushed_eq m c t) cover

/-- Every weakly fair execution of the kernel's program terminates with its result at the block-diagonal product and
    its arguments unchanged. -/
theorem run : θ_run defs (onTc (τ := τ) (main (F := Ideal))) ⟨m, fun _ => 0, ρ⟩ fun r => ∀ c : Dev nD,
      r.2.mem ((c : Thread nD τ).loc main_v0)
        = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.RefValue.lean ====
/-
  The reference computes the block-diagonal product.

  It reshapes `X : [1024, 32768]` to `[16, 64, 32768]` (row `r` becomes block `r / 64`, row `r % 64`), multiplies
  block by block — a batched product over the block axis, contracting the 64 columns of each square block with the 64
  rows of its slab of `X` —, and reshapes back. Both reshapes are row-major, so entry `(r, b)` of the result is the
  batched product's entry `(r / 64, r % 64, b)`, and the slab entry `(r / 64, k, b)` is `X[(r / 64) · 64 + k, b]`:
  the sum is `BlockDiag.prod`'s, term by term. Only the index arithmetic is proved here.
-/
import proofs.«146479_j63496796504583_2_alg».proof.Proof.Gen.ReferenceIdeal.Read
import proofs.«146479_j63496796504583_2_alg».proof.Proof.BlockDiag

noncomputable section

namespace Cert.ReferenceIdeal.RefValue

open Cert.ReferenceIdeal Cert.ReferenceIdeal.Read Idealize.ShloMosaic Idealize.ShloMosaic.ValueIdx Cert.BlockDiag

/-- The batched product's left factor for result entry `(r, b)` at step `k` is `W[r / 64, r % 64, k]`. -/
theorem left_index (r : Fin 1024) (b : Fin 32768) (k : Fin 64) :
    lidx_main_v1 (idx_main_v2 (ix2 r b)) k = wAt r k := by
  have hr : r.val < 1024 := r.isLt
  have hb : b.val < 32768 := b.isLt
  funext a; apply Fin.ext
  match a with
  | ⟨0, _⟩ => show (r.val * 32768 + b.val) / 2097152 = r.val / 64; omega
  | ⟨1, _⟩ => show (r.val * 32768 + b.val) / 32768 % 64 = r.val % 64; omega
  | ⟨2, _⟩ => rfl

/-- Its right factor, read back through the first reshape, is `X[(r / 64) · 64 + k, b]`. -/
theorem right_index (r : Fin 1024) (b : Fin 32768) (k : Fin 64) :
    idx_main_v0 (ridx_main_v1 (idx_main_v2 (ix2 r b)) k) = xAt r b k := by
  have hr : r.val < 1024 := r.isLt
  have hb : b.val < 32768 := b.isLt
  have hk : k.val < 64 := k.isLt
  funext a; apply Fin.ext
  match a with
  | ⟨0, _⟩ =>
    show (((r.val * 32768 + b.val) / 2097152 * 64 + k.val) * 32768 + (r.val * 32768 + b.val) % 32768) / 32768
      = r.val / 64 * 64 + k.val
    omega
  | ⟨1, _⟩ =>
    show (((r.val * 32768 + b.val) / 2097152 * 64 + k.val) * 32768 + (r.val * 32768 + b.val) % 32768) % 32768 = b.val
    omega

/-- The reference's result, as a function of its two arguments, is `blockdiag(W) · X`. -/
theorem result_eq (W : SW.Idx → EReal) (X : SX.Idx → EReal) : val_main_v2 (F := Ideal) W X = prod W X := by
  funext i
  obtain ⟨r, b, rfl⟩ : ∃ (r : Fin 1024) (b : Fin 32768), i = ix2 r b := ⟨i 0, i 1, eq_ix2 i⟩
  rw [val_main_v2_apply, val_main_v1_apply]
  show _ = ∑ k : Fin 64, W (wAt r k) * X (xAt r b k)
  refine Finset.sum_congr rfl fun k _ => ?_
  rw [val_main_v0_apply, left_index, right_index]

end Cert.ReferenceIdeal.RefValue

end
-- ==== Proof.lean ====
/-
  A block-diagonal matrix times a matrix, computed tile by tile, against the same product written as one batched
  contraction.

  `W` stacks 16 square blocks of size 64 and `X` is 1024 × 32768. Both programs compute

      out[r, b] = Σ_{k < 64} W[r / 64, r % 64, k] · X[(r / 64) · 64 + k, b]        (Proof/BlockDiag.lean, `prod`).

  The kernel works on an 8 × 2 grid: each point multiplies a pair of diagonal blocks against a 128 × 16384 tile of
  `X`, one block per 64 rows of the tile (Proof/Payload.lean, Proof/Block.lean); a tile of the product is exactly that
  tile-level product (Proof/Tile.lean), and the 16 tiles fill the output (Proof/KernelValue.lean). The reference
  reshapes `X` into 16 slabs of 64 rows, contracts each block against its slab, and reshapes back
  (Proof/RefValue.lean). On the extended reals the two are the same finite sums of the same products, term by term:
  narrowing a factor to a shorter float format is the identity there, and the kernel's zero accumulator adds nothing.
  No law that could fail at an infinity is used, so the inputs' finiteness is never opened. The idealization rewrote
  no operation of the kernel, so there is nothing to preserve.
-/
import proofs.«146479_j63496796504583_2_alg».proof.Defs
import proofs.«146479_j63496796504583_2_alg».proof.Proof.Gen.Kernel
import proofs.«146479_j63496796504583_2_alg».proof.Proof.Gen.Kernel.Skeleton
import proofs.«146479_j63496796504583_2_alg».proof.Proof.Gen.Kernel.Launch
import proofs.«146479_j63496796504583_2_alg».proof.Proof.Gen.Kernel.Points
import proofs.«146479_j63496796504583_2_alg».proof.Proof.Gen.Kernel.Frame
import proofs.«146479_j63496796504583_2_alg».proof.Proof.Gen.KernelIdeal
import proofs.«146479_j63496796504583_2_alg».proof.Proof.Gen.KernelIdeal.Skeleton
import proofs.«146479_j63496796504583_2_alg».proof.Proof.Gen.KernelIdeal.Launch
import proofs.«146479_j63496796504583_2_alg».proof.Proof.Gen.KernelIdeal.Points
import proofs.«146479_j63496796504583_2_alg».proof.Proof.Gen.KernelIdeal.Frame
import proofs.«146479_j63496796504583_2_alg».proof.Proof.Gen.ReferenceIdeal
import proofs.«146479_j63496796504583_2_alg».proof.Proof.Gen.Pre_finite_inputs
import proofs.«146479_j63496796504583_2_alg».proof.Proof.Gen.KernelIdeal.Value
import proofs.«146479_j63496796504583_2_alg».proof.Proof.Gen.ReferenceIdeal.Run
import proofs.«146479_j63496796504583_2_alg».proof.Proof.Gen.ReferenceIdeal.Read
import proofs.«146479_j63496796504583_2_alg».proof.Proof.KernelValue
import proofs.«146479_j63496796504583_2_alg».proof.Proof.RefValue
import Idealize.ShloMosaic.Adequacy
import Idealize.ShloMosaic.Init

noncomputable section

namespace Cert.Proof

open Idealize.ShloMosaic Idealize.SL.Sem

/-- The kernel as printed runs to the end, faults nowhere, and leaves `W` and `X` as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories that agree on `W` and `X`, both programs end with `blockdiag(W) · X`: the kernel by its tiles, the
    reference by its batched contraction, and the two arguments are the same arrays. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
